-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S128x2048 : Shape := ⟨2, ![128, 2048]⟩
abbrev S2048 : Shape := ⟨1, ![2048]⟩
abbrev S2048x4096 : Shape := ⟨2, ![2048, 4096]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S16384x2048 .f32) (main_arg1 : FVec F S128x2048 .f32) (main_arg2 : FVec F S2048 .f32) (main_arg3 : FVec F S2048x4096 .f32) (main_arg4 : FVec F S2048 .f32) (main_arg5 : FVec F S2048x2048 .f32) (main_arg6 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S16384x2048 : Shape := ⟨2, ![16384, 2048]⟩
abbrev S128x2048 : Shape := ⟨2, ![128, 2048]⟩
abbrev S2048 : Shape := ⟨1, ![2048]⟩
abbrev S2048x4096 : Shape := ⟨2, ![2048, 4096]⟩
abbrev S2048x2048 : Shape := ⟨2, ![2048, 2048]⟩
abbrev S16384 : Shape := ⟨1, ![16384]⟩
abbrev S128 : Shape := ⟨1, ![128]⟩
abbrev S128x128 : Shape := ⟨2, ![128, 128]⟩
abbrev S128x1 : Shape := ⟨2, ![128, 1]⟩
abbrev S1x2048 : Shape := ⟨2, ![1, 2048]⟩
abbrev S128x4096 : Shape := ⟨2, ![128, 4096]⟩
abbrev S_ : Shape := ⟨0, ![]⟩
abbrev S1 : Shape := ⟨1, ![1]⟩

abbrev nBuf : Space → Nat
  | .hbm => 24
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S128x2048, .f32⟩
  | .hbm, ⟨2, _⟩ => ⟨S2048, .f32⟩
  | .hbm, ⟨3, _⟩ => ⟨S2048x4096, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S128x2048, .bf16⟩
  | .hbm, ⟨8, _⟩ => ⟨S2048x4096, .bf16⟩
  | .hbm, ⟨9, _⟩ => ⟨S2048x2048, .bf16⟩
  | .hbm, ⟨10, _⟩ => ⟨S16384, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S16384, .f32⟩
  | .hbm, ⟨23, _⟩ => ⟨S16384, .f32⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S2048, .f32⟩
  | .local _ .vmem, ⟨4, _⟩ => ⟨S2048x4096, .bf16⟩
  | .local _ .vmem, ⟨5, _⟩ => ⟨S2048, .f32⟩
  | .local _ .vmem, ⟨6, _⟩ => ⟨S2048x2048, .bf16⟩
  | .local _ .vmem, ⟨7, _⟩ => ⟨S2048, .f32⟩
  | .local _ .vmem, ⟨8, _⟩ => ⟨S128, .f32⟩
  | .local _ .vmem, ⟨9, _⟩ => ⟨S128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  reduces_S128x128_S128 : S128x128.Reduces [1] S128
  shapeCasts_S128_S128x1 : S128.ShapeCasts S128x1
  broadcasts_S128x1_S128x128 : S128x1.Broadcasts S128x128
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  concatenates_S128x2048_S128x2048_S128x4096_d1 : Shape.Concatenates [S128x2048, S128x2048] S128x4096 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S128x2048_S128 : S128x2048.Reduces [1] S128
  inb_S128_S128_0 : ∀ a, (![0] : Fin 1 → Nat) a + S128.size a ≤ S128.size a
  h_S128 : 0 < S128.numel
  reducesTo_S16384_S_d0 : S16384.ReducesTo [0] S_
  h_S_ : 0 < S_.numel
  bcast_S_S1 : S_.BroadcastsInDim S1 (![] : Fin 0 → Fin S1.rank)
  bcast_S1_S16384_0 : S1.BroadcastsInDim S16384 (![0] : Fin 1 → Fin S16384.rank)
  dot_S128x2048_S128x2048_S128x128_1_1_0_0_n_n_wf : DotDims.WF S128x2048 S128x2048 S128x128 [1] [1] [0] [0] [] []
  dot_S128x128_S128x2048_S128x2048_1_0_0_1_n_n_wf : DotDims.WF S128x128 S128x2048 S128x2048 [1] [0] [0] [1] [] []
  dot_S128x4096_S2048x4096_S128x2048_1_1_0_0_n_n_wf : DotDims.WF S128x4096 S2048x4096 S128x2048 [1] [1] [0] [0] [] []
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .bf16 = 32 ∨ (Rect.block (s := S128x2048) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S16384.size a
  hwx0_7 : ∀ i : grid0.Coords, EltTy.bits .f32 = 32 ∨ (Rect.block (s := S16384) S128.size (cc0_transform_7 i) (hinb0_7 i)).WholeWords (EltTy.packing .f32)

variable [Facts₀]

def dot_S128x2048_S128x2048_S128x128_1_1_0_0_n_n : DotDims S128x2048 S128x2048 S128x128 where
  lhsContracting := [1]
  rhsContracting := [1]
  lhsNonContracting := [0]
  rhsNonContracting := [0]
  lhsBatch := []
  rhsBatch := []
  wf := dot_S128x2048_S128x2048_S128x128_1_1_0_0_n_n_wf
def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf
def dot_S128x4096_S2048x4096_S128x2048_1_1_0_0_n_n : DotDims S128x4096 S2048x4096 S128x2048 where
  lhsContracting := [1]
  rhsContracting := [1]
  lhsNonContracting := [0]
  rhsNonContracting := [0]
  lhsBatch := []
  rhsBatch := []
  wf := dot_S128x4096_S2048x4096_S128x2048_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S128x2048 : Shape := ⟨2, ![128, 2048]⟩
abbrev S2048 : Shape := ⟨1, ![2048]⟩
abbrev S2048x4096 : Shape := ⟨2, ![2048, 4096]⟩
abbrev S2048x2048 : Shape := ⟨2, ![2048, 2048]⟩
abbrev S2048x128 : Shape := ⟨2, ![2048, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S4096x2048 : Shape := ⟨2, ![4096, 2048]⟩
abbrev S1x2048 : Shape := ⟨2, ![1, 2048]⟩
abbrev S1 : Shape := ⟨1, ![1]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S128x2048, .f32⟩
  | .hbm, ⟨2, _⟩ => ⟨S2048, .f32⟩
  | .hbm, ⟨3, _⟩ => ⟨S2048x4096, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x128, .f32⟩
  | .hbm, ⟨8, _⟩ => ⟨S16384x128, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x128, .f32⟩
  | .hbm, ⟨22, _⟩ => ⟨S16384x128, .f32⟩
  | .hbm, ⟨23, _⟩ => ⟨S16384x2048, .f32⟩
  | .hbm, ⟨24, _⟩ => ⟨S16384x2048, .f32⟩
  | .hbm, ⟨25, _⟩ => ⟨S16384x4096, .f32⟩
  | .hbm, ⟨26, _⟩ => ⟨S4096x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S2048x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S16384, .f32⟩
  | .hbm, ⟨48, _⟩ => ⟨S16384, .f32⟩
  | .hbm, ⟨49, _⟩ => ⟨S16384, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S16384, .f32⟩
  | .hbm, ⟨54, _⟩ => ⟨S16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  transposes_S128x2048_S2048x128_1_0 : S128x2048.Transposes [1, 0] S2048x128
  reducesTo_S16384x128_S16384_d1 : S16384x128.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  bcast_S2048_S16384x2048_1 : S2048.BroadcastsInDim S16384x2048 (![1] : Fin 1 → Fin S16384x2048.rank)
  concatenates_S16384x2048_S16384x2048_S16384x4096_d1 : Shape.Concatenates [S16384x2048, S16384x2048] S16384x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  transposes_S2048x2048_S2048x2048_1_0 : S2048x2048.Transposes [1, 0] S2048x2048
  reducesTo_S16384x2048_S16384_d1 : S16384x2048.ReducesTo [1] S16384
  reducesTo_S16384_S_d0 : S16384.ReducesTo [0] S_
  bcast_S_S1 : S_.BroadcastsInDim S1 (![] : Fin 0 → Fin S1.rank)
  bcast_S1_S16384_0 : S1.BroadcastsInDim S16384 (![0] : Fin 1 → Fin S16384.rank)
  dot_S16384x2048_S2048x128_S16384x128_1_0_0_1_n_n_wf : DotDims.WF S16384x2048 S2048x128 S16384x128 [1] [0] [0] [1] [] []
  dot_S16384x128_S128x2048_S16384x2048_1_0_0_1_n_n_wf : DotDims.WF S16384x128 S128x2048 S16384x2048 [1] [0] [0] [1] [] []
  dot_S16384x4096_S4096x2048_S16384x2048_1_0_0_1_n_n_wf : DotDims.WF S16384x4096 S4096x2048 S16384x2048 [1] [0] [0] [1] [] []
  dot_S16384x2048_S2048x2048_S16384x2048_1_0_0_1_n_n_wf : DotDims.WF S16384x2048 S2048x2048 S16384x2048 [1] [0] [0] [1] [] []

variable [Facts₀]

def dot_S16384x2048_S2048x128_S16384x128_1_0_0_1_n_n : DotDims S16384x2048 S2048x128 S16384x128 where
  lhsContracting := [1]
  rhsContracting := [0]
  lhsNonContracting := [0]
  rhsNonContracting := [1]
  lhsBatch := []
  rhsBatch := []
  wf := dot_S16384x2048_S2048x128_S16384x128_1_0_0_1_n_n_wf
def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf
def dot_S16384x4096_S4096x2048_S16384x2048_1_0_0_1_n_n : DotDims S16384x4096 S4096x2048 S16384x2048 where
  lhsContracting := [1]
  rhsContracting := [0]
  lhsNonContracting := [0]
  rhsNonContracting := [1]
  lhsBatch := []
  rhsBatch := []
  wf := dot_S16384x4096_S4096x2048_S16384x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.KernelWords.lean ====
/-
  The kernel body's values, one name each.

  At one grid point the body holds a block `x` of 128 embedding rows and the whole of the question, the history and the
  two layers. Its arithmetic is named here stage by stage — the scores of the block's rows against the tokens, each
  row's top, the exponentials, the softmax weights, the attended question, history and question side by side, the
  rectified first layer, the second layer, and the block's 128 scores — so that every later statement speaks of a stage
  and never of the printed sequence. The two printed payloads are these stages composed, by unfolding.
  (The roundings to the narrow float format on the way into each matrix product, and the casts of an array to its own
  shape, are part of the terms; on the extended reals they are identities and are removed where the stages are read.)
-/
import proofs.«144409_j64381559767613_1_alg».proof.Proof.Gen.KernelIdeal.Skeleton

noncomputable section

namespace Cert.Attend.Body

open Cert.KernelIdeal Cert.KernelIdeal.Gen Idealize.ShloMosaic

variable {F : FTy → Type} [FloatOps F]
variable (x : FVec F S128x2048 .f32) (Q : FVec F S128x2048 .bf16) (h : FVec F S2048 .f32)
  (W₁ : FVec F S2048x4096 .bf16) (b₁ : FVec F S2048 .f32) (W₂ : FVec F S2048x2048 .bf16) (b₂ : FVec F S2048 .f32)

/-- The block's rows against every token: `x · Qᵀ`. -/
def tokenScores : FVec F S128x128 .f32 :=
  matmul dot_S128x2048_S128x2048_S128x128_1_1_0_0_n_n none (truncf .bf16 x bitsLt_bf16_f32)
    (shapeCast S128x2048 Q shapeCasts_S128x2048_S128x2048) (constant S128x128 .f32 0x00000000#32)

/-- Each row's largest token score, from −∞ and compared with −∞ once more. -/
def topScores : FVec F S128 .f32 :=
  maximumf (broadcast S128 (Scalar.ofBits .f32 0xFF800000#32))
    (multiReduction .maximumf [1] S128 (tokenScores x Q) 0xFF800000#32 reduces_S128x128_S128 (.inl rfl) rfl)

/-- The exponentials of the scores below each row's top. -/
def lifts : FVec F S128x128 .f32 :=
  exp (subf (tokenScores x Q)
    (broadcastTo S128x128 (shapeCast S128x1 (topScores x Q) shapeCasts_S128_S128x1) broadcasts_S128x1_S128x128))

/-- The softmax weights: each exponential over its row's sum. -/
def weights : FVec F S128x128 .f32 :=
  divf (lifts x Q)
    (broadcastTo S128x128 (shapeCast S128x1
      (multiReduction .add [1] S128 (lifts x Q) 0x00000000#32 reduces_S128x128_S128 (.inl rfl) rfl) shapeCasts_S128_S128x1)
      broadcasts_S128x1_S128x128)

/-- The attended question of the block's rows: `w · Q`. -/
def attendedRows : FVec F S128x2048 .f32 :=
  matmul dot_S128x128_S128x2048_S128x2048_1_0_0_1_n_n none (truncf .bf16 (weights x Q) bitsLt_bf16_f32)
    (shapeCast S128x2048 Q shapeCasts_S128x2048_S128x2048) (constant S128x2048 .f32 0x00000000#32)

/-- The history beside the attended question, on every row of the block. -/
def joinedRows : FVec F S128x4096 .f32 :=
  concatenate S128x4096 1
    [⟨S128x2048, broadcastTo S128x2048 (shapeCast S1x2048 h shapeCasts_S2048_S1x2048) broadcasts_S1x2048_S128x2048⟩,
     ⟨S128x2048, attendedRows x Q⟩] concatenates_S128x2048_S128x2048_S128x4096_d1

/-- The first layer, rectified. -/
def hiddenRows : FVec F S128x2048 .f32 :=
  maximumf
    (addf (matmul dot_S128x4096_S2048x4096_S128x2048_1_1_0_0_n_n none (truncf .bf16 (joinedRows x Q h) bitsLt_bf16_f32)
        (shapeCast S2048x4096 W₁ shapeCasts_S2048x4096_S2048x4096) (constant S128x2048 .f32 0x00000000#32))
      (broadcastTo S128x2048 (shapeCast S1x2048 b₁ shapeCasts_S2048_S1x2048) broadcasts_S1x2048_S128x2048))
    (broadcast S128x2048 (Scalar.ofBits .f32 0x00000000#32))

/-- The second layer. -/
def mixedRows : FVec F S128x2048 .f32 :=
  addf (matmul dot_S128x2048_S2048x2048_S128x2048_1_1_0_0_n_n none (truncf .bf16 (hiddenRows x Q h W₁ b₁) bitsLt_bf16_f32)
      (shapeCast S2048x2048 W₂ shapeCasts_S2048x2048_S2048x2048) (constant S128x2048 .f32 0x00000000#32))
    (broadcastTo S128x2048 (shapeCast S1x2048 b₂ shapeCasts_S2048_S1x2048) broadcasts_S1x2048_S128x2048)

/-- The block's 128 scores: the second layer's rows against the embeddings, summed along each row. -/
def blockScores : FVec F S128 .f32 :=
  multiReduction .add [1] S128 (mulf (mixedRows x Q h W₁ b₁ W₂ b₂) x) 0x00000000#32 reduces_S128x2048_S128 (.inl rfl) rfl

/-- The body's first payload is the second layer of its loads. -/
theorem pay2_eq : k0_pay2 x Q h W₁ b₁ W₂ b₂ = mixedRows x Q h W₁ b₁ W₂ b₂ := rfl

/-- The stored value is the block's scores. -/
theorem pay1_eq : k0_pay1 x (k0_pay2 x Q h W₁ b₁ W₂ b₂) = blockScores x Q h W₁ b₁ W₂ b₂ := rfl

end Cert.Attend.Body

end
-- ==== Proof.AttendSpec.lean ====
/-
  The score of one action against the question, as one function of that action's embedding row.

  Both programs compute, for every action `r` (a row `a` of the action embeddings, 2048 numbers), the same number from
  `a`, the question tokens `Q` (128 × 2048), the history vector `h`, and two affine layers `(W₁, b₁)`, `(W₂, b₂)`:

    s_n   = Σ_d a_d · Q[n, d]                       the action's score against token n
    M     = max(−∞, max_n s_n)                        the row maximum, started from −∞ twice, as both programs do
    e_n   = exp(s_n − M),     w_n = e_n / Σ_k e_k     the softmax weights over the 128 tokens
    q_d   = Σ_n w_n · Q[n, d]                        the attended question
    x     = (h, q)                                    the two halves laid side by side, 4096 numbers
    y_j   = max(Σ_k x_k · W₁[j, k] + b₁[j], 0)       the first layer and its rectifier
    z_j   = Σ_k y_k · W₂[j, k] + b₂[j]               the second layer
    score = Σ_d z_d · a_d

  Nothing else about `a`'s neighbours enters: the entry for action `r` depends on row `r` of the embeddings only, which is
  why a block of 128 rows of the kernel and the whole array of the reference are read by the same function. All
  arithmetic is on the extended reals; the two literals (−∞ and 0) are kept as the words both programs print, never
  evaluated. The final softmax over the 16384 actions is the same chain of host operations in both programs and is kept
  as one function (`overActions`) of the scores.
-/
import Idealize.ShloMosaic.PureOps.Ideal
import Idealize.ShloMosaic.Lib.ValueIdx

noncomputable section

open scoped BigOperators

namespace Cert.Attend

open Idealize.ShloMosaic Idealize.ShloMosaic.ValueIdx

/-- A matrix and a vector of extended reals, indexed as the programs index them. -/
abbrev Mat (a b : Nat) : Type := (⟨2, ![a, b]⟩ : Shape).Idx → EReal
abbrev Vc (a : Nat) : Type := (⟨1, ![a]⟩ : Shape).Idx → EReal

/-- The value both programs start a maximum from: the word of −∞, not evaluated. -/
abbrev floorWord : EReal := Ideal.ofBits .f32 0xFF800000#32
/-- The rectifier's threshold: the word of 0, not evaluated. -/
abbrev zeroWord : EReal := Ideal.ofBits .f32 0x00000000#32

section Row
variable (a : Fin 2048 → EReal) (Q : Mat 128 2048) (h : Vc 2048) (W₁ : Mat 2048 4096) (b₁ : Vc 2048)
  (W₂ : Mat 2048 2048) (b₂ : Vc 2048)

/-- The action's score against token `n`. -/
def tokenScore (n : Fin 128) : EReal := ∑ d : Fin 2048, a d * Q (ix2 n d)

/-- The largest token score, started from −∞ and compared with −∞ once more. -/
def topScore : EReal := max floorWord ((Finset.univ : Finset (Fin 128)).fold max floorWord fun n => tokenScore a Q n)

/-- The exponential of a token's score below the top. -/
def lift (n : Fin 128) : EReal := Ideal.exp (tokenScore a Q n - topScore a Q)

/-- The softmax weight of token `n`. -/
def weight (n : Fin 128) : EReal := Ideal.div (lift a Q n) (∑ k : Fin 128, lift a Q k)

/-- The attended question at feature `d`. -/
def attended (d : Fin 2048) : EReal := ∑ n : Fin 128, weight a Q n * Q (ix2 n d)

/-- History and attended question side by side: the history in the first 2048 places. -/
def joined (k : Fin 4096) : EReal :=
  if hk : k.val < 2048 then h (ix1 ⟨k.val, hk⟩) else attended a Q ⟨k.val - 2048, by have := k.isLt; omega⟩

/-- The first layer, rectified. -/
def hidden (j : Fin 2048) : EReal := max ((∑ k : Fin 4096, joined a Q h k * W₁ (ix2 j k)) + b₁ (ix1 j)) zeroWord

/-- The second layer. -/
def mixed (j : Fin 2048) : EReal := (∑ k : Fin 2048, hidden a Q h W₁ b₁ k * W₂ (ix2 j k)) + b₂ (ix1 j)

/-- The action's score: the second layer's output against the action's own embedding. -/
def actionScore : EReal := ∑ d : Fin 2048, mixed a Q h W₁ b₁ W₂ b₂ d * a d

end Row

/-- Row `r` of a matrix of embeddings. -/
abbrev rowOf {M : Nat} (A : Mat M 2048) (r : Fin M) : Fin 2048 → EReal := fun d => A (ix2 r d)

/-- Every action's score, as an array over the 16384 actions. -/
def scores (A : Mat 16384 2048) (Q : Mat 128 2048) (h : Vc 2048) (W₁ : Mat 2048 4096) (b₁ : Vc 2048)
    (W₂ : Mat 2048 2048) (b₂ : Vc 2048) : Vc 16384 :=
  fun i => actionScore (rowOf A (i 0)) Q h W₁ b₁ W₂ b₂

end Cert.Attend

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.KernelRead.lean ====
/-
  The kernel body's stages, read entry by entry.

  Row `p` of every stage of the body depends on row `p` of the block of embeddings only, and is the corresponding
  quantity of the specification at that row: a matrix product into a zero accumulator is a finite sum of products, a
  lane reduction a finite sum (or a fold of `max`) along the row, a column kept by a cast and a broadcast reads the row's
  value at every column, a vector laid along the rows reads its own entry, and the two halves laid side by side read the
  history below column 2048 and the attended question from there on. The roundings into the matrix products are the
  identity on the extended reals.
-/
import proofs.«144409_j64381559767613_1_alg».proof.Proof.KernelWords
import proofs.«144409_j64381559767613_1_alg».proof.Proof.AttendSpec
import proofs.«144409_j64381559767613_1_alg».proof.Proof.LibMatmulNT
import proofs.«144409_j64381559767613_1_alg».proof.Proof.LibMatmulNN
import proofs.«144409_j64381559767613_1_alg».proof.Proof.LibKeepdims
import proofs.«144409_j64381559767613_1_alg».proof.Proof.LibHostKeepdims
import Idealize.ShloMosaic.Lib.Pipeline.Value
import Idealize.ShloMosaic.Lib.ValueLayout

noncomputable section

open scoped BigOperators

namespace Cert.Attend.Body

open Cert.KernelIdeal Cert.KernelIdeal.Gen Idealize.ShloMosaic Idealize.ShloMosaic.ValueIdx Cert.Attend

/-- A vector laid along the rows of a matrix (cast to one row, broadcast down) reads its own entry at every row. -/
theorem alongRows_apply {α : Type} {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply _ hc 0 c)

variable (x : FVec Ideal S128x2048 .f32) (Q : FVec Ideal S128x2048 .bf16) (h : FVec Ideal S2048 .f32)
  (W₁ : FVec Ideal S2048x4096 .bf16) (b₁ : FVec Ideal S2048 .f32) (W₂ : FVec Ideal S2048x2048 .bf16) (b₂ : FVec Ideal S2048 .f32)

theorem tokenScores_apply (p n : Fin 128) : tokenScores x Q (ix2 p n) = tokenScore (rowOf x p) Q n := by
  unfold tokenScores tokenScore
  refine (Cert.LibMatmulNT.matmul_nt_apply dot_S128x2048_S128x2048_S128x128_1_1_0_0_n_n rfl rfl rfl rfl rfl rfl none _ _ p n).trans ?_
  refine Finset.sum_congr rfl fun d _ => ?_
  rw [truncf_apply, shapeCast_self]

theorem topScores_apply (p : Fin 128) : topScores x Q (ix1 p) = topScore (rowOf x p) Q := by
  unfold topScores topScore
  rw [maximumf_apply, broadcast_apply]
  refine congrArg₂ max rfl ?_
  refine (multiReduction_maximumf_rows_apply (tokenScores x Q) 0xFF800000#32 reduces_S128x128_S128 (.inl rfl) rfl p).trans ?_
  exact congrArg (Finset.fold max _ · _) (funext fun n => tokenScores_apply x Q p n)

theorem lifts_apply (p n : Fin 128) : lifts x Q (ix2 p n) = lift (rowOf x p) Q n := by
  unfold lifts lift
  show Ideal.exp (tokenScores x Q (ix2 p n)
    - broadcastTo S128x128 (shapeCast S128x1 (topScores x Q) shapeCasts_S128_S128x1) broadcasts_S128x1_S128x128 (ix2 p n)) = _
  rw [broadcastTo_a1_ab_apply, shapeCast_a_a1_apply, tokenScores_apply, topScores_apply]

theorem weights_apply (p n : Fin 128) : weights x Q (ix2 p n) = weight (rowOf x p) Q n := by
  unfold weights weight
  rw [divf_apply]
  refine congrArg₂ Ideal.div (lifts_apply x Q p n) ?_
  refine (rowSum_bcast_apply (lifts x Q) 0x00000000#32 reduces_S128x128_S128 (.inl rfl) rfl shapeCasts_S128_S128x1
    broadcasts_S128x1_S128x128 p n).trans ?_
  exact Finset.sum_congr rfl fun k _ => lifts_apply x Q p k

theorem attendedRows_apply (p : Fin 128) (d : Fin 2048) : attendedRows x Q (ix2 p d) = attended (rowOf x p) Q d := by
  unfold attendedRows attended
  refine (Cert.LibMatmulNN.matmul_nn_apply dot_S128x128_S128x2048_S128x2048_1_0_0_1_n_n rfl rfl rfl rfl rfl rfl none _ _ p d).trans ?_
  refine Finset.sum_congr rfl fun n _ => ?_
  rw [truncf_apply, shapeCast_self, weights_apply]

theorem joinedRows_apply (p : Fin 128) (k : Fin 4096) : joinedRows x Q h (ix2 p k) = joined (rowOf x p) Q h k := by
  unfold joinedRows joined
  by_cases hk : k.val < 2048
  · rw [dif_pos hk]
    refine (concatenate_pair_apply_left (t := S128x4096) (s₁ := S128x2048) (s₂ := S128x2048) (1 : Fin 2) _ _ concatenates_S128x2048_S128x2048_S128x4096_d1 (ix2 p k) rfl
      (ix2 p (⟨k.val, hk⟩ : Fin 2048)) (fun b => ?_)).trans ?_
    · match b with
      | ⟨0, _⟩ => rfl
      | ⟨1, _⟩ => rfl
    · exact alongRows_apply h shapeCasts_S2048_S1x2048 broadcasts_S1x2048_S128x2048 p _
  · rw [dif_neg hk]
    have hk' : k.val - 2048 < 2048 := by have := k.isLt; omega
    refine (concatenate_pair_apply_right (t := S128x4096) (s₁ := S128x2048) (s₂ := S128x2048) (1 : Fin 2) _ _ concatenates_S128x2048_S128x2048_S128x4096_d1 (ix2 p k) rfl rfl
      (ix2 p (⟨k.val - 2048, hk'⟩ : Fin 2048)) (fun b hb => ?_) ?_).trans ?_
    · match b with
      | ⟨0, _⟩ => rfl
      | ⟨1, _⟩ => exact absurd rfl hb
    · show k.val - 2048 + 2048 = k.val
      omega
    · exact attendedRows_apply x Q p _

theorem hiddenRows_apply (p : Fin 128) (j : Fin 2048) :
    hiddenRows x Q h W₁ b₁ (ix2 p j) = hidden (rowOf x p) Q h W₁ b₁ j := by
  unfold hiddenRows hidden
  rw [maximumf_apply, addf_apply, broadcast_apply]
  refine congrArg₂ max (congrArg₂ (· + ·) ?_ ?_) rfl
  · refine (Cert.LibMatmulNT.matmul_nt_apply dot_S128x4096_S2048x4096_S128x2048_1_1_0_0_n_n rfl rfl rfl rfl rfl rfl none _ _ p j).trans ?_
    refine Finset.sum_congr rfl fun k _ => ?_
    rw [truncf_apply, shapeCast_self, joinedRows_apply]
  · exact alongRows_apply b₁ shapeCasts_S2048_S1x2048 broadcasts_S1x2048_S128x2048 p j

theorem mixedRows_apply (p : Fin 128) (j : Fin 2048) :
    mixedRows x Q h W₁ b₁ W₂ b₂ (ix2 p j) = mixed (rowOf x p) Q h W₁ b₁ W₂ b₂ j := by
  unfold mixedRows mixed
  rw [addf_apply]
  refine congrArg₂ (· + ·) ?_ ?_
  · refine (Cert.LibMatmulNT.matmul_nt_apply dot_S128x2048_S2048x2048_S128x2048_1_1_0_0_n_n rfl rfl rfl rfl rfl rfl none _ _ p j).trans ?_
    refine Finset.sum_congr rfl fun k _ => ?_
    rw [truncf_apply, shapeCast_self, hiddenRows_apply]
  · exact alongRows_apply b₂ shapeCasts_S2048_S1x2048 broadcasts_S1x2048_S128x2048 p j

/-- Entry `p` of what the body stores is the score of the action in row `p` of the block. -/
theorem blockScores_apply (p : Fin 128) :
    blockScores x Q h W₁ b₁ W₂ b₂ (ix1 p) = actionScore (rowOf x p) Q h W₁ b₁ W₂ b₂ := by
  unfold blockScores actionScore
  refine (multiReduction_add_rows_apply _ 0x00000000#32 reduces_S128x2048_S128 (.inl rfl) rfl p).trans ?_
  refine Finset.sum_congr rfl fun d _ => ?_
  rw [mulf_apply, mixedRows_apply]

end Cert.Attend.Body

end
-- ==== Proof.RefRun.lean ====
/-
  The reference's run, read stage by stage.

  The reference computes every action's score in three stretches of host operations: the softmax weights of each action
  over the 128 question tokens (from the embeddings and the question alone); from those weights, the attended question,
  the two affine layers with the rectifier between them, and the product with the action's own embedding summed along the
  row; and last the softmax over all 16384 scores. Each stretch is stated here as a named function of the arrays it
  reads (`weights`, `rowScores`, `overActions`), so that the whole result is their composition and no stage is ever
  spelled twice — the scores are read four times by the last stretch, the exponentials twice by the first.
  The run itself is the library's: a straight line of host operations ends with every buffer at the operations' fold
  over the launch contents; what is proved here is what that fold holds at the three stages' result buffers, for ANY
  contents the stretch starts from, and that no operation writes an argument.
-/
import proofs.«144409_j64381559767613_1_alg».proof.Proof.RefOps

noncomputable section

namespace Cert.Attend.Ref

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The stages, as functions of the arrays they read -/

section Stages
variable (A : FVec F S16384x2048 .f32) (Q : FVec F S128x2048 .f32) (h : FVec F S2048 .f32)
  (W₁ : FVec F S2048x4096 .f32) (b₁ : FVec F S2048 .f32) (W₂ : FVec F S2048x2048 .f32) (b₂ : FVec F S2048 .f32)

/-- Every action against every token: `A · Qᵀ`. -/
def tokenScores : FVec F S16384x128 .f32 :=
  Host.dotGeneral dot_S16384x2048_S2048x128_S16384x128_1_0_0_1_n_n none A (transpose S2048x128 [1, 0] Q transposes_S128x2048_S2048x128_1_0)

/-- Each action's largest token score, from −∞ and compared with −∞ once more. -/
def topScores : FVec F S16384 .f32 :=
  maximumf (broadcastInDim S16384 ![] bcast_S_S16384 (constant S_ .f32 0xFF800000#32))
    (Host.reduce FloatOps.maximumf (tokenScores A Q) (constant S_ .f32 0xFF800000#32) reducesTo_S16384x128_S16384_d1 h_S_)

/-- The exponentials of the scores below each row's top. -/
def lifts : FVec F S16384x128 .f32 :=
  Host.exp (subf (tokenScores A Q)
    (broadcastInDim S16384x128 ![0, 1] bcast_S16384x1_S16384x128_0_1 (broadcastInDim S16384x1 ![0] bcast_S16384_S16384x1_0 (topScores A Q))))

/-- The softmax weights: each exponential over its row's sum. -/
def weights : FVec F S16384x128 .f32 :=
  Host.divf (lifts A Q)
    (broadcastInDim S16384x128 ![0, 1] bcast_S16384x1_S16384x128_0_1 (broadcastInDim S16384x1 ![0] bcast_S16384_S16384x1_0
      (Host.reduceAdd (lifts A Q) (constant S_ .f32 0x00000000#32) reducesTo_S16384x128_S16384_d1 h_S_)))

variable (w : FVec F S16384x128 .f32)

/-- The attended question of every action: `w · Q`. -/
def attendedRows : FVec F S16384x2048 .f32 :=
  Host.dotGeneral dot_S16384x128_S128x2048_S16384x2048_1_0_0_1_n_n none w Q

/-- The history beside the attended question, on every row. -/
def joinedRows : FVec F S16384x4096 .f32 :=
  concatenate S16384x4096 1 [⟨S16384x2048, broadcastInDim S16384x2048 ![1] bcast_S2048_S16384x2048_1 h⟩, ⟨S16384x2048, attendedRows Q w⟩]
    concatenates_S16384x2048_S16384x2048_S16384x4096_d1

/-- The first layer, rectified. -/
def hiddenRows : FVec F S16384x2048 .f32 :=
  maximumf
    (addf (Host.dotGeneral dot_S16384x4096_S4096x2048_S16384x2048_1_0_0_1_n_n none (joinedRows Q h w) (transpose S4096x2048 [1, 0] W₁ transposes_S2048x4096_S4096x2048_1_0))
      (broadcastInDim S16384x2048 ![0, 1] bcast_S1x2048_S16384x2048_0_1 (broadcastInDim S1x2048 ![1] bcast_S2048_S1x2048_1 b₁)))
    (broadcastInDim S16384x2048 ![] bcast_S_S16384x2048 (constant S_ .f32 0x00000000#32))

/-- The second layer. -/
def mixedRows : FVec F S16384x2048 .f32 :=
  addf (Host.dotGeneral dot_S16384x2048_S2048x2048_S16384x2048_1_0_0_1_n_n none (hiddenRows Q h W₁ b₁ w) (transpose S2048x2048 [1, 0] W₂ transposes_S2048x2048_S2048x2048_1_0))
    (broadcastInDim S16384x2048 ![0, 1] bcast_S1x2048_S16384x2048_0_1 (broadcastInDim S1x2048 ![1] bcast_S2048_S1x2048_1 b₂))

/-- Every action's score: the second layer's row against the action's embedding, summed. -/
def rowScores : FVec F S16384 .f32 :=
  Host.reduceAdd (mulf (mixedRows Q h W₁ b₁ W₂ b₂ w) A) (constant S_ .f32 0x00000000#32) reducesTo_S16384x2048_S16384_d1 h_S_

/-- The softmax over the actions: the chain of host operations both programs end with, as one function of the scores. -/
def overActions (s : FVec F S16384 .f32) : FVec F S16384 .f32 :=
  let top : FVec F S_ .f32 := maximumf (constant S_ .f32 0xFF800000#32) (Host.reduce FloatOps.maximumf s (constant S_ .f32 0xFF800000#32) reducesTo_S16384_S_d0 h_S_)
  let e : FVec F S16384 .f32 := Host.exp (subf s (broadcastInDim S16384 ![0] bcast_S1_S16384_0 (broadcastInDim S1 ![] bcast_S_S1 top)))
  Host.divf e (broadcastInDim S16384 ![0] bcast_S1_S16384_0 (broadcastInDim S1 ![] bcast_S_S1
    (Host.reduceAdd e (constant S_ .f32 0x00000000#32) reducesTo_S16384_S_d0 h_S_)))

end Stages

/-! ## What each stretch leaves, from any contents -/

theorem after_append (xs ys : List (HloOp τ sig (Elt F))) (V : Valuation τ sig (Elt F)) :
    after (xs ++ ys) V = after ys (after xs V) := by
  induction xs generalizing V with
  | nil => rfl
  | cons op xs ih => exact ih (op.result V)

/-- The first stretch leaves the softmax weights of the embeddings and the question it found. -/
theorem weights_left (V : Valuation τ sig (Elt F)) :
    after weightsOps V (main_v12 : DevRef τ sig) = weights (V (main_arg0 : DevRef τ sig)) (V (main_arg1 : DevRef τ sig)) := by
  after_results_simp
  rfl

/-- The second stretch leaves every action's score, from the weights and the arguments it found. -/
theorem rowScores_left (V : Valuation τ sig (Elt F)) :
    after scoreOps V (main_v28 : DevRef τ sig)
      = rowScores (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_v12 : DevRef τ sig)) := by
  after_results_simp
  rfl

/-- The last stretch leaves the softmax of the scores it found. -/
theorem overActions_left (V : Valuation τ sig (Elt F)) :
    after tailOps V (main_v38 : DevRef τ sig) = overActions (V (main_v28 : DevRef τ sig)) := by
  after_results_simp
  rfl

end Cert.Attend.Ref

end
-- ==== Proof.KernelArray.lean ====
/-
  From the kernel's blocks to its result.

  The grid has 128 points; point `t` is handed rows `128·t … 128·t + 127` of the embeddings and the whole of every other
  operand (the question and the two weight matrices as the host rounded them to the narrow float format before the
  launch, which is the identity on the extended reals), and writes back entries `128·t … 128·t + 127` of the scores.
  Entry `p` of what a point stores is the score of the action in row `p` of its block, so what point `t` writes back is
  block `t` of ONE array, the scores of all 16384 actions as a function of the launch contents; the 128 blocks tile that
  array (entry `i` is point `i / 128`'s), so after the region the array holds those scores. The host operations after
  the region, the softmax over the actions, are applied to it as one function.
-/
import proofs.«144409_j64381559767613_1_alg».proof.Proof.Gen.KernelIdeal.Frame
import proofs.«144409_j64381559767613_1_alg».proof.Proof.KernelRead
import proofs.«144409_j64381559767613_1_alg».proof.Proof.RefRun
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Attend.Kernel

open Cert.KernelIdeal Cert.KernelIdeal.Gen Cert.Attend

variable (m : (ℓ : Loc nD τ sig) → Buf (Elt Ideal) ℓ) (ρ : Dev nD → PrngReg)

/-- Every action's score, of the arrays the program is launched with. -/
def launchScores (c : Dev nD) : Vc 16384 :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem hz1 : (![0] : Fin 1 → Nat) = fun _ => 0 := funext fun a => by fin_cases a; rfl
theorem hz2 : (![0, 0] : Fin 2 → Nat) = fun _ => 0 := funext fun a => by fin_cases a <;> rfl

/-! ## The arrays the region finds -/

/-- The question as the region finds it: the host's rounding of the argument, the identity on the extended reals. -/
theorem found_question (c : Dev nD) :
    (V m c main_v0 : S128x2048.Idx → EReal) = (m ((c : Thread nD τ).loc main_arg1) : S128x2048.Idx → EReal) := by
  show StableHlo.after hostOps0 (fun b => m (c, b)) (Proc.devRef .tc main_v0) = _
  after_results
  rfl

theorem found_layer1 (c : Dev nD) :
    (V m c main_v1 : S2048x4096.Idx → EReal) = (m ((c : Thread nD τ).loc main_arg3) : S2048x4096.Idx → EReal) := by
  show StableHlo.after hostOps0 (fun b => m (c, b)) (Proc.devRef .tc main_v1) = _
  after_results
  rfl

theorem found_layer2 (c : Dev nD) :
    (V m c main_v2 : S2048x2048.Idx → EReal) = (m ((c : Thread nD τ).loc main_arg5) : S2048x2048.Idx → EReal) := by
  show StableHlo.after hostOps0 (fun b => m (c, b)) (Proc.devRef .tc main_v2) = _
  after_results
  rfl

/-! ## Which block each point is handed -/

/-- The index maps over the grid: the embeddings and the scores move with the point, every other operand stays at block 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = t.val :=
  (by decide +kernel : ∀ t : Fin grid0.N, _)

/-- Row `p` of point `t`'s block of embeddings is row `128·t + p` of the argument. -/
theorem rows_block (c : Dev nD) (t : Fin cfg0.N) (p : Fin 128) (d : Fin 2048) (r : Fin 16384) (hr : r.val = 128 * t.val + p.val) :
    (iblk m c 0 t : S128x2048.Idx → EReal) (ix2 p d) = (m ((c : Thread nD τ).loc main_arg0) : S16384x2048.Idx → EReal) (ix2 r d) := by
  obtain ⟨e0, e1, -⟩ := block_indices t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 128 + 1 * p.val = r.val; rw [e0, hr]; omega
  | ⟨1, _⟩ => show win0_0.index t (1 : Fin 2) * 2048 + 1 * d.val = d.val; rw [e1]; omega

/-- Every point is handed the whole question, -/
theorem question_block (c : Dev nD) (t : Fin cfg0.N) :
    (iblk m c 1 t : S128x2048.Idx → EReal) = (m ((c : Thread nD τ).loc main_arg1) : S128x2048.Idx → EReal) := by
  obtain ⟨-, -, e0, e1, -⟩ := block_indices t
  funext y
  unfold iblk
  rw [View.read_apply]
  show V m c main_v0 _ = _
  rw [found_question]
  refine congrArg (m ((c : Thread nD τ).loc main_arg1)) (funext fun a => Fin.ext ?_)
  match a with
  | ⟨0, _⟩ => show win0_1.index t (0 : Fin 2) * 128 + 1 * (y 0).val = (y 0).val; rw [e0]; omega
  | ⟨1, _⟩ => show win0_1.index t (1 : Fin 2) * 2048 + 1 * (y 1).val = (y 1).val; rw [e1]; omega

/-- the whole history, -/
theorem history_block (c : Dev nD) (t : Fin cfg0.N) :
    (iblk m c 2 t : S2048.Idx → EReal) = (m ((c : Thread nD τ).loc main_arg2) : S2048.Idx → EReal) := by
  obtain ⟨-, -, -, -, e0, -⟩ := block_indices t
  funext y
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 1) * 2048 + 1 * (y 0).val = (y 0).val; rw [e0]; omega

/-- the whole first layer and its bias, -/
theorem layer1_block (c : Dev nD) (t : Fin cfg0.N) :
    (iblk m c 3 t : S2048x4096.Idx → EReal) = (m ((c : Thread nD τ).loc main_arg3) : S2048x4096.Idx → EReal) := by
  obtain ⟨-, -, -, -, -, e0, e1, -⟩ := block_indices t
  funext y
  unfold iblk
  rw [View.read_apply]
  show V m c main_v1 _ = _
  rw [found_layer1]
  refine congrArg (m ((c : Thread nD τ).loc main_arg3)) (funext fun a => Fin.ext ?_)
  match a with
  | ⟨0, _⟩ => show win0_3.index t (0 : Fin 2) * 2048 + 1 * (y 0).val = (y 0).val; rw [e0]; omega
  | ⟨1, _⟩ => show win0_3.index t (1 : Fin 2) * 4096 + 1 * (y 1).val = (y 1).val; rw [e1]; omega

theorem bias1_block (c : Dev nD) (t : Fin cfg0.N) :
    (iblk m c 4 t : S2048.Idx → EReal) = (m ((c : Thread nD τ).loc main_arg4) : S2048.Idx → EReal) := by
  obtain ⟨-, -, -, -, -, -, -, e0, -⟩ := block_indices t
  funext y
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 1) * 2048 + 1 * (y 0).val = (y 0).val; rw [e0]; omega

/-- and the whole second layer and its bias. -/
theorem layer2_block (c : Dev nD) (t : Fin cfg0.N) :
    (iblk m c 5 t : S2048x2048.Idx → EReal) = (m ((c : Thread nD τ).loc main_arg5) : S2048x2048.Idx → EReal) := by
  obtain ⟨-, -, -, -, -, -, -, -, e0, e1, -⟩ := block_indices t
  funext y
  unfold iblk
  rw [View.read_apply]
  show V m c main_v2 _ = _
  rw [found_layer2]
  refine congrArg (m ((c : Thread nD τ).loc main_arg5)) (funext fun a => Fin.ext ?_)
  match a with
  | ⟨0, _⟩ => show win0_5.index t (0 : Fin 2) * 2048 + 1 * (y 0).val = (y 0).val; rw [e0]; omega
  | ⟨1, _⟩ => show win0_5.index t (1 : Fin 2) * 2048 + 1 * (y 1).val = (y 1).val; rw [e1]; omega

theorem bias2_block (c : Dev nD) (t : Fin cfg0.N) :
    (iblk m c 6 t : S2048.Idx → EReal) = (m ((c : Thread nD τ).loc main_arg6) : S2048.Idx → EReal) := by
  obtain ⟨-, -, -, -, -, -, -, -, -, -, e0, -⟩ := block_indices t
  funext y
  unfold iblk
  rw [View.read_apply]
  show V m c main_arg6 _ = _
  rw [V_main_arg6]
  refine congrArg (m ((c : Thread nD τ).loc main_arg6)) (funext fun a => Fin.ext ?_)
  match a with
  | ⟨0, _⟩ => show win0_6.index t (0 : Fin 1) * 2048 + 1 * (y 0).val = (y 0).val; rw [e0]; omega

/-! ## What a point stores, and what it writes back -/

/-- The output buffer after the body holds the block's scores of the loaded blocks. -/
theorem stored_eq (x0 : FVec Ideal S128x2048 .f32) (x1 : FVec Ideal S128x2048 .bf16) (x2 : FVec Ideal S2048 .f32)
    (x3 : FVec Ideal S2048x4096 .bf16) (x4 : FVec Ideal S2048 .f32) (x5 : FVec Ideal S2048x2048 .bf16) (x6 : FVec Ideal S2048 .f32) :
    out0_7 (F := Ideal) x0 x1 x2 x3 x4 x5 x6 = Body.blockScores (F := Ideal) x0 x1 x2 x3 x4 x5 x6 := by
  unfold out0_7
  rw [View.canon_unit_zero hz1]
  simp only [View.ld_unit_zero (S := S128x2048) hz2, View.ld_unit_zero (S := S2048) hz1,
    View.ld_unit_zero (S := S2048x4096) hz2, View.ld_unit_zero (S := S2048x2048) hz2]
  exact Body.pay1_eq x0 x1 x2 x3 x4 x5 x6

/-- Entry `p` of what point `t` stores is the score of action `128·t + p`. -/
theorem stored_entry (c : Dev nD) (t : Fin cfg0.N) (p : Fin 128) (r : Fin 16384) (hr : r.val = 128 * t.val + p.val) :
    Body.blockScores (F := Ideal) (iblk m c 0 t) (iblk m c 1 t) (iblk m c 2 t) (iblk m c 3 t) (iblk m c 4 t) (iblk m c 5 t) (iblk m c 6 t) (ix1 p)
      = launchScores m c (ix1 r) := by
  refine (Body.blockScores_apply (iblk m c 0 t) (iblk m c 1 t) (iblk m c 2 t) (iblk m c 3 t) (iblk m c 4 t) (iblk m c 5 t)
    (iblk m c 6 t) p).trans ?_
  rw [question_block, history_block, layer1_block, bias1_block, layer2_block, bias2_block]
  unfold launchScores scores
  refine congrArg (fun a => actionScore a _ _ _ _ _ _) (funext fun d => ?_)
  exact rows_block m c t p d r hr

/-- WHAT POINT `t` WRITES BACK is block `t` of the scores of all actions. -/
theorem flushed_eq (c : Dev nD) (t : Fin cfg0.N) :
    (dats m 0 c).flushed 7 t = ((cfg0.win 7).blk t).view.read (Elt Ideal) (launchScores m c) := by
  have e7 := (block_indices t).2.2.2.2.2.2.2.2.2.2.2
  have hN : cfg0.N = 128 := N_0
  show (cfg0.win 7).cut (grid0.coords t) ((dats m 0 c).after 7 t) = _
  rw [after0_7, stored_eq]
  funext y
  have hy : (y 0).val < 128 := (y 0).isLt
  have hr : 128 * t.val + (y 0).val < 16384 := by have := t.isLt; omega
  show Body.blockScores (F := Ideal) (iblk m c 0 t) (iblk m c 1 t) (iblk m c 2 t) (iblk m c 3 t) (iblk m c 4 t) (iblk m c 5 t) (iblk m c 6 t) y
    = launchScores m c (((cfg0.win 7).blk t).view.emb y)
  refine ((congrArg _ (eq_ix1 y)).trans (stored_entry m c t (y 0) ⟨128 * t.val + (y 0).val, hr⟩ rfl)).trans
    (congrArg (launchScores m c) (funext fun a => Fin.ext ?_))
  match a with
  | ⟨0, _⟩ => show 128 * t.val + (y 0).val = win0_7.index t (0 : Fin 1) * 128 + 1 * (y 0).val; rw [e7]; omega

/-! ## The blocks tile the array -/

theorem mem_block (t : Fin cfg0.N) (i : S16384.Idx) :
    i ∈ ((cfg0.win 7).blk t).view.set
      ↔ ∀ a : Fin 1, win0_7.index t a * S128.size a ≤ (i a).val ∧ (i a).val < win0_7.index t a * S128.size a + S128.size a := by
  show i ∈ ((View.whole main_v3).slice (win0_7.rect t)).set ↔ _
  rw [View.set_slice_whole, Rect.mem_set_unit]
  exact Iff.rfl

/-- Entry `i` of the scores is in the block of point `i / 128`, which is written back. -/
theorem covered (i : S16384.Idx) : ∃ t : Fin cfg0.N, (cfg0.win 7).flush t = true ∧ i ∈ ((cfg0.win 7).blk t).view.set := by
  have hi : (i 0).val < 16384 := (i 0).isLt
  have hN : cfg0.N = 128 := N_0
  have ht : (i 0).val / 128 < cfg0.N := by rw [hN]; omega
  have e7 := (block_indices ⟨(i 0).val / 128, ht⟩).2.2.2.2.2.2.2.2.2.2.2
  refine ⟨⟨(i 0).val / 128, ht⟩, flush0_7 _, ?_⟩
  rw [mem_block]
  intro a
  match a with
  | ⟨0, _⟩ =>
    show win0_7.index ⟨(i 0).val / 128, ht⟩ (0 : Fin 1) * 128 ≤ (i 0).val
      ∧ (i 0).val < win0_7.index ⟨(i 0).val / 128, ht⟩ (0 : Fin 1) * 128 + 128
    rw [e7]
    show (i 0).val / 128 * 128 ≤ (i 0).val ∧ (i 0).val < (i 0).val / 128 * 128 + 128
    omega

/-- THE ARRAY after the region: the scores of all actions. -/
theorem final_scores (c : Dev nD) : (dats m 0 c).arrAt 7 cfg0.N = launchScores m c :=
  (dats m 0 c).arrAt_eq_of_cover 7 (launchScores m c) (fun t _ => flushed_eq m c t) covered

/-! ## The host operations after the region, and the run -/

/-- The host operations after the region leave the softmax over the actions of the scores they find. -/
theorem tail_left (W : Valuation τ sig (Elt Ideal)) :
    StableHlo.after hostOps1 W (Proc.devRef .tc main_v13) = Ref.overActions (F := Ideal) (W (Proc.devRef .tc main_v3)) := by
  after_results_simp
  rfl

/-- The program's result: the softmax over the actions of their scores. -/
theorem result_eq (c : Dev nD) :
    Pipeline.afterTail₀ cfgs (dats m) 0 (V0 m) [hostOps1] c main_v13 = Ref.overActions (F := Ideal) (launchScores m c) := by
  unfold Pipeline.afterTail₀
  show StableHlo.after hostOps1 _ (Proc.devRef .tc main_v13) = _
  rw [tail_left]
  exact congrArg (Ref.overActions (F := Ideal)) ((Pipeline.withArrays_arr spec0 launch0.win.arr_inj c _ _ 7).trans (final_scores m c))

/-- The run, read: the result at the softmax over the actions of their scores, the arguments unchanged. -/
theorem run : θ_run defs (onTc (τ := τ) (main (F := Ideal))) ⟨m, fun _ => 0, ρ⟩ fun r => ∀ c : Dev nD,
      r.2.mem ((c.tc : Thread nD τ).loc main_v13) = Ref.overActions (F := Ideal) (launchScores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v13 (Pipeline.mem_restRefs_of main_v13 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c)))⟩)
    (run_main m ρ)

end Cert.Attend.Kernel

end
-- ==== Proof.RefWhole.lean ====
/-
  The reference's run, whole.

  No operation of the reference writes an argument, so each stretch finds the arguments as launched; the first stretch
  leaves the softmax weights, the second the scores from those weights, the third the softmax over the actions of those
  scores. Composed: the result is `overActions` of `rowScores` at the `weights`, all of the launch contents.
-/
import proofs.«144409_j64381559767613_1_alg».proof.Proof.RefRun

noncomputable section

namespace Cert.Attend.Ref

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## No operation writes an argument -/

theorem weights_keep0 (V : Valuation τ sig (Elt F)) :
    after weightsOps V (main_arg0 : DevRef τ sig) = V (main_arg0 : DevRef τ sig) :=
  after_of_forall_not_mem (b := Proc.devRef .tc main_arg0) _ _ (List.forall_iff_forall_mem.mp (by
    simp only [List.cons_append, List.nil_append, List.Forall, nullary_writes, unary_writes, binary_writes, Finset.mem_singleton]
    repeat' apply And.intro
    all_goals exact devRef_ne_of_ne (by decide)))
theorem weights_keep1 (V : Valuation τ sig (Elt F)) :
    after weightsOps V (main_arg1 : DevRef τ sig) = V (main_arg1 : DevRef τ sig) :=
  after_of_forall_not_mem (b := Proc.devRef .tc main_arg1) _ _ (List.forall_iff_forall_mem.mp (by
    simp only [List.cons_append, List.nil_append, List.Forall, nullary_writes, unary_writes, binary_writes, Finset.mem_singleton]
    repeat' apply And.intro
    all_goals exact devRef_ne_of_ne (by decide)))
theorem weights_keep2 (V : Valuation τ sig (Elt F)) :
    after weightsOps V (main_arg2 : DevRef τ sig) = V (main_arg2 : DevRef τ sig) :=
  after_of_forall_not_mem (b := Proc.devRef .tc main_arg2) _ _ (List.forall_iff_forall_mem.mp (by
    simp only [List.cons_append, List.nil_append, List.Forall, nullary_writes, unary_writes, binary_writes, Finset.mem_singleton]
    repeat' apply And.intro
    all_goals exact devRef_ne_of_ne (by decide)))
theorem weights_keep3 (V : Valuation τ sig (Elt F)) :
    after weightsOps V (main_arg3 : DevRef τ sig) = V (main_arg3 : DevRef τ sig) :=
  after_of_forall_not_mem (b := Proc.devRef .tc main_arg3) _ _ (List.forall_iff_forall_mem.mp (by
    simp only [List.cons_append, List.nil_append, List.Forall, nullary_writes, unary_writes, binary_writes, Finset.mem_singleton]
    repeat' apply And.intro
    all_goals exact devRef_ne_of_ne (by decide)))
theorem weights_keep4 (V : Valuation τ sig (Elt F)) :
    after weightsOps V (main_arg4 : DevRef τ sig) = V (main_arg4 : DevRef τ sig) :=
  after_of_forall_not_mem (b := Proc.devRef .tc main_arg4) _ _ (List.forall_iff_forall_mem.mp (by
    simp only [List.cons_append, List.nil_append, List.Forall, nullary_writes, unary_writes, binary_writes, Finset.mem_singleton]
    repeat' apply And.intro
    all_goals exact devRef_ne_of_ne (by decide)))
theorem weights_keep5 (V : Valuation τ sig (Elt F)) :
    after weightsOps V (main_arg5 : DevRef τ sig) = V (main_arg5 : DevRef τ sig) :=
  after_of_forall_not_mem (b := Proc.devRef .tc main_arg5) _ _ (List.forall_iff_forall_mem.mp (by
    simp only [List.cons_append, List.nil_append, List.Forall, nullary_writes, unary_writes, binary_writes, Finset.mem_singleton]
    repeat' apply And.intro
    all_goals exact devRef_ne_of_ne (by decide)))
theorem weights_keep6 (V : Valuation τ sig (Elt F)) :
    after weightsOps V (main_arg6 : DevRef τ sig) = V (main_arg6 : DevRef τ sig) :=
  after_of_forall_not_mem (b := Proc.devRef .tc main_arg6) _ _ (List.forall_iff_forall_mem.mp (by
    simp only [List.cons_append, List.nil_append, List.Forall, nullary_writes, unary_writes, binary_writes, Finset.mem_singleton]
    repeat' apply And.intro
    all_goals exact devRef_ne_of_ne (by decide)))

theorem ops_keep0 (V : Valuation τ sig (Elt F)) :
    after ops V (main_arg0 : DevRef τ sig) = V (main_arg0 : DevRef τ sig) :=
  after_of_forall_not_mem (b := Proc.devRef .tc main_arg0) _ _ (List.forall_iff_forall_mem.mp (by
    simp only [List.cons_append, List.nil_append, List.Forall, nullary_writes, unary_writes, binary_writes, Finset.mem_singleton]
    repeat' apply And.intro
    all_goals exact devRef_ne_of_ne (by decide)))
theorem ops_keep1 (V : Valuation τ sig (Elt F)) :
    after ops V (main_arg1 : DevRef τ sig) = V (main_arg1 : DevRef τ sig) :=
  after_of_forall_not_mem (b := Proc.devRef .tc main_arg1) _ _ (List.forall_iff_forall_mem.mp (by
    simp only [List.cons_append, List.nil_append, List.Forall, nullary_writes, unary_writes, binary_writes, Finset.mem_singleton]
    repeat' apply And.intro
    all_goals exact devRef_ne_of_ne (by decide)))
theorem ops_keep2 (V : Valuation τ sig (Elt F)) :
    after ops V (main_arg2 : DevRef τ sig) = V (main_arg2 : DevRef τ sig) :=
  after_of_forall_not_mem (b := Proc.devRef .tc main_arg2) _ _ (List.forall_iff_forall_mem.mp (by
    simp only [List.cons_append, List.nil_append, List.Forall, nullary_writes, unary_writes, binary_writes, Finset.mem_singleton]
    repeat' apply And.intro
    all_goals exact devRef_ne_of_ne (by decide)))
theorem ops_keep3 (V : Valuation τ sig (Elt F)) :
    after ops V (main_arg3 : DevRef τ sig) = V (main_arg3 : DevRef τ sig) :=
  after_of_forall_not_mem (b := Proc.devRef .tc main_arg3) _ _ (List.forall_iff_forall_mem.mp (by
    simp only [List.cons_append, List.nil_append, List.Forall, nullary_writes, unary_writes, binary_writes, Finset.mem_singleton]
    repeat' apply And.intro
    all_goals exact devRef_ne_of_ne (by decide)))
theorem ops_keep4 (V : Valuation τ sig (Elt F)) :
    after ops V (main_arg4 : DevRef τ sig) = V (main_arg4 : DevRef τ sig) :=
  after_of_forall_not_mem (b := Proc.devRef .tc main_arg4) _ _ (List.forall_iff_forall_mem.mp (by
    simp only [List.cons_append, List.nil_append, List.Forall, nullary_writes, unary_writes, binary_writes, Finset.mem_singleton]
    repeat' apply And.intro
    all_goals exact devRef_ne_of_ne (by decide)))
theorem ops_keep5 (V : Valuation τ sig (Elt F)) :
    after ops V (main_arg5 : DevRef τ sig) = V (main_arg5 : DevRef τ sig) :=
  after_of_forall_not_mem (b := Proc.devRef .tc main_arg5) _ _ (List.forall_iff_forall_mem.mp (by
    simp only [List.cons_append, List.nil_append, List.Forall, nullary_writes, unary_writes, binary_writes, Finset.mem_singleton]
    repeat' apply And.intro
    all_goals exact devRef_ne_of_ne (by decide)))
theorem ops_keep6 (V : Valuation τ sig (Elt F)) :
    after ops V (main_arg6 : DevRef τ sig) = V (main_arg6 : DevRef τ sig) :=
  after_of_forall_not_mem (b := Proc.devRef .tc main_arg6) _ _ (List.forall_iff_forall_mem.mp (by
    simp only [List.cons_append, List.nil_append, List.Forall, nullary_writes, unary_writes, binary_writes, Finset.mem_singleton]
    repeat' apply And.intro
    all_goals exact devRef_ne_of_ne (by decide)))

/-! ## The result -/

/-- The result's term of the launch contents. -/
def result (m : (ℓ : Loc nD τ sig) → Buf (Elt F) ℓ) (c : Dev nD) : FVec F S16384 .f32 :=
  overActions (rowScores (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))
    (weights (m ((c.tc : Thread nD τ).loc main_arg0)) (m ((c.tc : Thread nD τ).loc main_arg1))))

/-- The three stretches composed, from any contents. -/
theorem result_left (V : Valuation τ sig (Elt F)) :
    after ops V (main_v38 : DevRef τ sig)
      = overActions (rowScores (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig))
          (weights (V (main_arg0 : DevRef τ sig)) (V (main_arg1 : DevRef τ sig)))) := by
  show after (weightsOps ++ (scoreOps ++ tailOps)) V _ = _
  rw [after_append, after_append, overActions_left, rowScores_left, weights_left,
    weights_keep0, weights_keep1, weights_keep2, weights_keep3, weights_keep4, weights_keep5, weights_keep6]

/-- On every device, from any memory with zero counters: every weakly fair execution of the reference terminates with its
    result at `result` of the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v38).trans (result_left (launchContents m c)),
      (h c main_arg0).trans (ops_keep0 (launchContents m c)), (h c main_arg1).trans (ops_keep1 (launchContents m c)),
      (h c main_arg2).trans (ops_keep2 (launchContents m c)), (h c main_arg3).trans (ops_keep3 (launchContents m c)),
      (h c main_arg4).trans (ops_keep4 (launchContents m c)), (h c main_arg5).trans (ops_keep5 (launchContents m c)),
      (h c main_arg6).trans (ops_keep6 (launchContents m c))⟩)
    (run_seq scopedRefs_eq scopedSems_eq defs main (fun _ => ops) main_eq (fun _ => ops_sub) m ρ)

end Cert.Attend.Ref

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RefRead.lean ====
/-
  The reference's stages, read entry by entry.

  Row `r` of every stage of the reference depends on row `r` of the embeddings only, and is the corresponding quantity
  of the specification at that row: the host's matrix product is a finite sum of products whatever its schedule, its
  transposes swap the two coordinates, its sum along a row is the initial value (zero) plus the finite sum, its maximum
  along a row a fold of `max` from the initial value, a column kept by two broadcasts reads the row's value at every
  column, a vector broadcast along the rows reads its own entry, and the concatenation reads the history below column
  2048 and the attended question from there on.
-/
import proofs.«144409_j64381559767613_1_alg».proof.Proof.RefRun
import proofs.«144409_j64381559767613_1_alg».proof.Proof.AttendSpec
import proofs.«144409_j64381559767613_1_alg».proof.Proof.LibHostMatmulNN
import proofs.«144409_j64381559767613_1_alg».proof.Proof.LibHostKeepdims
import Idealize.ShloMosaic.Lib.Pipeline.Value
import Idealize.ShloMosaic.Lib.ValueLayout

noncomputable section

open scoped BigOperators

namespace Cert.Attend.Ref

open Cert.ReferenceIdeal Cert.ReferenceIdeal.Gen Idealize.ShloMosaic Idealize.ShloMosaic.ValueIdx Cert.Attend Cert.LibHostMatmulNN

/-- A per-row value kept as a column and broadcast along the 128 tokens reads the row's value at every token. -/
theorem keptColumn_apply (v : FVec Ideal S16384 .f32) (r : Fin 16384) (n : Fin 128) :
    broadcastInDim S16384x128 ![0, 1] bcast_S16384x1_S16384x128_0_1 (broadcastInDim S16384x1 ![0] bcast_S16384_S16384x1_0 v) (ix2 r n)
      = v (ix1 r) :=
  (broadcastInDim_a1_ab_apply ![0, 1] bcast_S16384x1_S16384x128_0_1 rfl _ r n).trans
    (broadcastInDim_a_a1_apply ![0] bcast_S16384_S16384x1_0 rfl v r 0)

/-- A vector laid along the rows (to one row, then to all) reads its own entry at every row. -/
theorem alongRows_apply (v : FVec Ideal S2048 .f32) (r : Fin 16384) (c : Fin 2048) :
    broadcastInDim S16384x2048 ![0, 1] bcast_S1x2048_S16384x2048_0_1 (broadcastInDim S1x2048 ![1] bcast_S2048_S1x2048_1 v) (ix2 r c)
      = v (ix1 c) :=
  (broadcastInDim_1b_ab_apply ![0, 1] bcast_S1x2048_S16384x2048_0_1 rfl _ r c).trans
    (broadcastInDim_b_1b_apply ![1] bcast_S2048_S1x2048_1 rfl v 0 c)

/-- The host's quotient, entry by entry. -/
theorem hostDivf_apply {s : Shape} {φ : FTy} (a b : FVec Ideal s φ) (i : s.Idx) : Host.divf a b i = Ideal.div (a i) (b i) := rfl

variable (A : FVec Ideal S16384x2048 .f32) (Q : FVec Ideal S128x2048 .f32) (h : FVec Ideal S2048 .f32)
  (W₁ : FVec Ideal S2048x4096 .f32) (b₁ : FVec Ideal S2048 .f32) (W₂ : FVec Ideal S2048x2048 .f32) (b₂ : FVec Ideal S2048 .f32)

theorem tokenScores_apply (r : Fin 16384) (n : Fin 128) : tokenScores A Q (ix2 r n) = tokenScore (rowOf A r) Q n := by
  unfold tokenScores tokenScore
  refine (hostDot_nn_apply dot_S16384x2048_S2048x128_S16384x128_1_0_0_1_n_n rfl rfl rfl rfl rfl rfl none _ _ r n).trans ?_
  refine Finset.sum_congr rfl fun d _ => ?_
  rw [transpose_ix2_apply]

theorem topScores_apply (r : Fin 16384) : topScores A Q (ix1 r) = topScore (rowOf A r) Q := by
  unfold topScores topScore
  rw [maximumf_apply]
  refine congrArg₂ max ?_ ?_
  · exact broadcastInDim_scalar_apply _ bcast_S_S16384 _ (ix1 r)
  · refine (hostReduce_max_rows_apply (tokenScores A Q) _ reducesTo_S16384x128_S16384_d1 (by decide) h_S_ r).trans ?_
    exact congrArg (Finset.fold max _ · _) (funext fun n => tokenScores_apply A Q r n)

theorem lifts_apply (r : Fin 16384) (n : Fin 128) : lifts A Q (ix2 r n) = lift (rowOf A r) Q n := by
  unfold lifts lift
  show Ideal.exp (tokenScores A Q (ix2 r n) - _) = _
  rw [keptColumn_apply, tokenScores_apply, topScores_apply]

theorem weights_apply (r : Fin 16384) (n : Fin 128) : weights A Q (ix2 r n) = weight (rowOf A r) Q n := by
  unfold weights weight
  rw [hostDivf_apply, keptColumn_apply, lifts_apply]
  refine congrArg (Ideal.div _) ?_
  refine (hostReduceAdd_rows_apply (lifts A Q) _ reducesTo_S16384x128_S16384_d1 (by decide) h_S_ r).trans ?_
  show Ideal.ofBits .f32 0x00000000#32 + _ = _
  rw [Ideal.ofBits_zero_f32, zero_add]
  exact Finset.sum_congr rfl fun k _ => lifts_apply A Q r k

/-! The second stretch reads the weights as an array of its own; its stages are read for any such array that holds
    the specification's weights. -/

variable (w : FVec Ideal S16384x128 .f32) (hw : ∀ (r : Fin 16384) (n : Fin 128), w (ix2 r n) = weight (rowOf A r) Q n)
include hw

theorem attendedRows_apply (r : Fin 16384) (d : Fin 2048) : attendedRows Q w (ix2 r d) = attended (rowOf A r) Q d := by
  unfold attendedRows attended
  refine (hostDot_nn_apply dot_S16384x128_S128x2048_S16384x2048_1_0_0_1_n_n rfl rfl rfl rfl rfl rfl none _ _ r d).trans ?_
  exact Finset.sum_congr rfl fun n _ => by rw [hw]

theorem joinedRows_apply (r : Fin 16384) (k : Fin 4096) : joinedRows Q h w (ix2 r k) = joined (rowOf A r) Q h k := by
  unfold joinedRows joined
  by_cases hk : k.val < 2048
  · rw [dif_pos hk]
    refine (concatenate_pair_apply_left (t := S16384x4096) (s₁ := S16384x2048) (s₂ := S16384x2048) (1 : Fin 2) _ _ concatenates_S16384x2048_S16384x2048_S16384x4096_d1 (ix2 r k) rfl
      (ix2 r (⟨k.val, hk⟩ : Fin 2048)) (fun b => ?_)).trans ?_
    · match b with
      | ⟨0, _⟩ => rfl
      | ⟨1, _⟩ => rfl
    · exact broadcastInDim_b_ab_apply ![1] bcast_S2048_S16384x2048_1 rfl h r _
  · rw [dif_neg hk]
    have hk' : k.val - 2048 < 2048 := by have := k.isLt; omega
    refine (concatenate_pair_apply_right (t := S16384x4096) (s₁ := S16384x2048) (s₂ := S16384x2048) (1 : Fin 2) _ _ concatenates_S16384x2048_S16384x2048_S16384x4096_d1 (ix2 r k) rfl rfl
      (ix2 r (⟨k.val - 2048, hk'⟩ : Fin 2048)) (fun b hb => ?_) ?_).trans ?_
    · match b with
      | ⟨0, _⟩ => rfl
      | ⟨1, _⟩ => exact absurd rfl hb
    · show k.val - 2048 + 2048 = k.val
      omega
    · exact attendedRows_apply A Q w hw r _

theorem hiddenRows_apply (r : Fin 16384) (j : Fin 2048) :
    hiddenRows Q h W₁ b₁ w (ix2 r j) = hidden (rowOf A r) Q h W₁ b₁ j := by
  unfold hiddenRows hidden
  rw [maximumf_apply, addf_apply]
  refine congrArg₂ max (congrArg₂ (· + ·) ?_ ?_) ?_
  · refine (hostDot_nn_apply dot_S16384x4096_S4096x2048_S16384x2048_1_0_0_1_n_n rfl rfl rfl rfl rfl rfl none _ _ r j).trans ?_
    refine Finset.sum_congr rfl fun k _ => ?_
    rw [transpose_ix2_apply, joinedRows_apply A Q h w hw]
  · exact alongRows_apply b₁ r j
  · exact broadcastInDim_scalar_apply _ bcast_S_S16384x2048 _ (ix2 r j)

theorem mixedRows_apply (r : Fin 16384) (j : Fin 2048) :
    mixedRows Q h W₁ b₁ W₂ b₂ w (ix2 r j) = mixed (rowOf A r) Q h W₁ b₁ W₂ b₂ j := by
  unfold mixedRows mixed
  rw [addf_apply]
  refine congrArg₂ (· + ·) ?_ ?_
  · refine (hostDot_nn_apply dot_S16384x2048_S2048x2048_S16384x2048_1_0_0_1_n_n rfl rfl rfl rfl rfl rfl none _ _ r j).trans ?_
    refine Finset.sum_congr rfl fun k _ => ?_
    rw [transpose_ix2_apply, hiddenRows_apply A Q h W₁ b₁ w hw]
  · exact alongRows_apply b₂ r j

/-- Entry `r` of the scores the second stretch leaves is the score of action `r`. -/
theorem rowScores_apply (r : Fin 16384) :
    rowScores A Q h W₁ b₁ W₂ b₂ w (ix1 r) = actionScore (rowOf A r) Q h W₁ b₁ W₂ b₂ := by
  unfold rowScores actionScore
  refine (hostReduceAdd_rows_apply _ _ reducesTo_S16384x2048_S16384_d1 (by decide) h_S_ r).trans ?_
  show Ideal.ofBits .f32 0x00000000#32 + _ = _
  rw [Ideal.ofBits_zero_f32, zero_add]
  refine Finset.sum_congr rfl fun d _ => ?_
  rw [mulf_apply, mixedRows_apply A Q h W₁ b₁ W₂ b₂ w hw]

omit hw in
/-- The reference's scores are the specification's, action by action. -/
theorem rowScores_eq : rowScores A Q h W₁ b₁ W₂ b₂ (weights A Q) = scores A Q h W₁ b₁ W₂ b₂ := by
  funext i
  obtain ⟨r, rfl⟩ : ∃ r : Fin 16384, i = ix1 r := ⟨i 0, eq_ix1 i⟩
  exact rowScores_apply A Q h W₁ b₁ W₂ b₂ (weights A Q) (weights_apply A Q) r

end Cert.Attend.Ref

end
-- ==== Proof.lean ====
/-
  Attention of 16384 actions over a question, two affine layers, and a softmax over the actions: the kernel and its
  reference compute the same array on the extended reals.

  For each action `r` both programs compute one number from row `r` of the action embeddings alone (Proof/AttendSpec.lean):
  the softmax weights of the row's scores against the 128 question tokens, the question attended with those weights, the
  history and the attended question side by side through a rectified affine layer and a second affine layer, and the
  result's product with the row summed. The kernel does this for 128 rows at each of its 128 grid points and writes the
  128 numbers back as one block of the scores; the reference does it for all rows at once with transposed weights. Read
  entry by entry (Proof/KernelRead.lean, Proof/RefRead.lean) both are the specification's `actionScore` of the row: a
  matrix product is a finite sum of products, the same sum whichever operand is stored transposed and in whatever order
  the terms are added, since addition on the extended reals is commutative and associative; the roundings to a narrower
  float format are identities there; nothing is distributed or cancelled, so the finiteness of the inputs is not used.
  The kernel's blocks tile the array of scores (Proof/KernelArray.lean), and the softmax over the actions that both
  programs end with is the same chain of host operations applied to equal scores, kept as one function.
  The three frames are the generated ones for the two kernel programs and the reference's run with the result dropped;
  the idealization rewrote nothing, so `preserves` is trivial.
-/
import proofs.«144409_j64381559767613_1_alg».proof.Defs
import proofs.«144409_j64381559767613_1_alg».proof.Proof.Gen.Kernel
import proofs.«144409_j64381559767613_1_alg».proof.Proof.Gen.Kernel.Skeleton
import proofs.«144409_j64381559767613_1_alg».proof.Proof.Gen.Kernel.Launch
import proofs.«144409_j64381559767613_1_alg».proof.Proof.Gen.Kernel.Points
import proofs.«144409_j64381559767613_1_alg».proof.Proof.Gen.Kernel.Frame
import proofs.«144409_j64381559767613_1_alg».proof.Proof.Gen.KernelIdeal
import proofs.«144409_j64381559767613_1_alg».proof.Proof.Gen.KernelIdeal.Skeleton
import proofs.«144409_j64381559767613_1_alg».proof.Proof.Gen.KernelIdeal.Launch
import proofs.«144409_j64381559767613_1_alg».proof.Proof.Gen.KernelIdeal.Points
import proofs.«144409_j64381559767613_1_alg».proof.Proof.Gen.KernelIdeal.Frame
import proofs.«144409_j64381559767613_1_alg».proof.Proof.Gen.ReferenceIdeal
import proofs.«144409_j64381559767613_1_alg».proof.Proof.Gen.Pre_finite_inputs
import proofs.«144409_j64381559767613_1_alg».proof.Proof.KernelArray
import proofs.«144409_j64381559767613_1_alg».proof.Proof.RefWhole
import proofs.«144409_j64381559767613_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.Attend.Ref.run (F := Ideal) m ρ)

/-- Both programs end with the softmax over the actions of the same scores: the kernel's array of scores is the
    specification's of the launch contents, the reference's stages are the specification's row by row, and the
    arguments agree. -/
theorem algebraic : Cert.algebraic_KernelIdeal_ReferenceIdeal := by
  intro m ρ m' ρ' _ hagree
  refine ⟨fun c => Cert.Attend.Ref.overActions (F := Ideal) (Cert.Attend.Kernel.launchScores m c), Cert.Attend.Kernel.run m ρ, ?_⟩
  refine (θ_run Cert.ReferenceIdeal.defs _ _).mono (fun _ h c => ⟨(h c).1.trans ?_, (h c).2⟩)
    (Cert.Attend.Ref.run (F := Ideal) m' ρ')
  obtain ⟨e0, e1, e2, e3, e4, e5, e6⟩ := hagree c
  unfold Cert.Attend.Ref.result
  rw [e0, e1, e2, e3, e4, e5, e6, Cert.Attend.Ref.rowScores_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
